-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S16x1024 : Shape := ⟨2, ![16, 1024]⟩
abbrev S1024x1024 : Shape := ⟨2, ![1024, 1024]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S16x2048x1024 .f32) (main_arg1 : FVec F S16x1024 .f32) (main_arg2 : FVec F S1024x1024 .f32) (main_arg3 : FVec F S1024x1024 .f32) (main_arg4 : FVec F S1024 .f32) (main_arg5 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S16x2048x1024 : Shape := ⟨3, ![16, 2048, 1024]⟩
abbrev S16x1024 : Shape := ⟨2, ![16, 1024]⟩
abbrev S1024x1024 : Shape := ⟨2, ![1024, 1024]⟩
abbrev S1024 : Shape := ⟨1, ![1024]⟩
abbrev S1x1024 : Shape := ⟨2, ![1, 1024]⟩
abbrev S16x1x1024 : Shape := ⟨3, ![16, 1, 1024]⟩
abbrev S32768x1024 : Shape := ⟨2, ![32768, 1024]⟩
abbrev S1x1x1024 : Shape := ⟨3, ![1, 1, 1024]⟩

abbrev nBuf : Space → Nat
  | .hbm => 20
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S16x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S16x1024, .f32⟩
  | .hbm, ⟨8, _⟩ => ⟨S1x1024, .f32⟩
  | .hbm, ⟨9, _⟩ => ⟨S16x1024, .f32⟩
  | .hbm, ⟨10, _⟩ => ⟨S16x1024, .f32⟩
  | .hbm, ⟨11, _⟩ => ⟨S1x1024, .f32⟩
  | .hbm, ⟨12, _⟩ => ⟨S16x1024, .f32⟩
  | .hbm, ⟨13, _⟩ => ⟨S16x1024, .f32⟩
  | .hbm, ⟨14, _⟩ => ⟨S16x1x1024, .f32⟩
  | .hbm, ⟨15, _⟩ => ⟨S1024x1024, .f32⟩
  | .hbm, ⟨16, _⟩ => ⟨S1024x1024, .bf16⟩
  | .hbm, ⟨17, _⟩ => ⟨S32768x1024, .f32⟩
  | .hbm, ⟨18, _⟩ => ⟨S32768x1024, .f32⟩
  | .hbm, ⟨19, _⟩ => ⟨S16x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16x1024_0_1 : S1x1024.BroadcastsInDim S16x1024 (![0, 1] : Fin 2 → Fin S16x1024.rank)
  shapeCasts_S16x1024_S16x1x1024 : S16x1024.ShapeCasts S16x1x1024
  bitsLt_bf16_f32 : FTy.bits .bf16 < FTy.bits .f32
  shapeCasts_S16x2048x1024_S32768x1024 : S16x2048x1024.ShapeCasts S32768x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  shapeCasts_S32768x1024_S16x2048x1024 : S32768x1024.ShapeCasts S16x2048x1024
  dot_S16x1024_S1024x1024_S16x1024_1_0_0_1_n_n_wf : DotDims.WF S16x1024 S1024x1024 S16x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S16x1x1024.size a
  hwx0_1 : ∀ i : grid0.Coords, EltTy.bits .f32 = 32 ∨ (Rect.block (s := S16x1x1024) S1x1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S16x1024_S1024x1024_S16x1024_1_0_0_1_n_n : DotDims S16x1024 S1024x1024 S16x1024 where
  lhsContracting := [1]
  rhsContracting := [0]
  lhsNonContracting := [0]
  rhsNonContracting := [1]
  lhsBatch := []
  rhsBatch := []
  wf := dot_S16x1024_S1024x1024_S16x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v11) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S16x1024 : Shape := ⟨2, ![16, 1024]⟩
abbrev S1024x1024 : Shape := ⟨2, ![1024, 1024]⟩
abbrev S1024 : Shape := ⟨1, ![1024]⟩
abbrev S1x1024 : Shape := ⟨2, ![1, 1024]⟩
abbrev S16x1x1024 : Shape := ⟨3, ![16, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S16x1024, .f32⟩
  | .hbm, ⟨8, _⟩ => ⟨S1x1024, .f32⟩
  | .hbm, ⟨9, _⟩ => ⟨S16x1024, .f32⟩
  | .hbm, ⟨10, _⟩ => ⟨S16x1024, .f32⟩
  | .hbm, ⟨11, _⟩ => ⟨S1x1024, .f32⟩
  | .hbm, ⟨12, _⟩ => ⟨S16x1024, .f32⟩
  | .hbm, ⟨13, _⟩ => ⟨S16x1024, .f32⟩
  | .hbm, ⟨14, _⟩ => ⟨S16x2048x1024, .f32⟩
  | .hbm, ⟨15, _⟩ => ⟨S16x1x1024, .f32⟩
  | .hbm, ⟨16, _⟩ => ⟨S16x2048x1024, .f32⟩
  | .hbm, ⟨17, _⟩ => ⟨S16x2048x1024, .f32⟩
  | .hbm, ⟨18, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16x1024_0_1 : S1x1024.BroadcastsInDim S16x1024 (![0, 1] : Fin 2 → Fin S16x1024.rank)
  bcast_S16x1024_S16x1x1024_0_2 : S16x1024.BroadcastsInDim S16x1x1024 (![0, 2] : Fin 2 → Fin S16x1x1024.rank)
  bcast_S16x1x1024_S16x2048x1024_0_1_2 : S16x1x1024.BroadcastsInDim S16x2048x1024 (![0, 1, 2] : Fin 3 → Fin S16x2048x1024.rank)
  dot_S16x1024_S1024x1024_S16x1024_1_0_0_1_n_n_wf : DotDims.WF S16x1024 S1024x1024 S16x1024 [1] [0] [0] [1] [] []
  dot_S16x2048x1024_S1024x1024_S16x2048x1024_2_1_01_0_n_n_wf : DotDims.WF S16x2048x1024 S1024x1024 S16x2048x1024 [2] [1] [0, 1] [0] [] []

variable [Facts₀]

def dot_S16x1024_S1024x1024_S16x1024_1_0_0_1_n_n : DotDims S16x1024 S1024x1024 S16x1024 where
  lhsContracting := [1]
  rhsContracting := [0]
  lhsNonContracting := [0]
  rhsNonContracting := [1]
  lhsBatch := []
  rhsBatch := []
  wf := dot_S16x1024_S1024x1024_S16x1024_1_0_0_1_n_n_wf
def dot_S16x2048x1024_S1024x1024_S16x2048x1024_2_1_01_0_n_n : DotDims S16x2048x1024 S1024x1024 S16x2048x1024 where
  lhsContracting := [2]
  rhsContracting := [1]
  lhsNonContracting := [0, 1]
  rhsNonContracting := [0]
  lhsBatch := []
  rhsBatch := []
  wf := dot_S16x2048x1024_S1024x1024_S16x2048x1024_2_1_01_0_n_n_wf

class Facts : Prop extends Facts₀ where

variable [Facts]
-- ==== Proof.CellBody.lean ====
/-
  One grid step of the recurrent cell, read at an element.

  The body loads a tile `x` of 1024 rows of the flattened input (each row one (batch, time) pair, 1024
  features), the whole transposed input weight `w` (feature × hidden unit) and one row `h` of the hidden
  term (the batch entry the tile's rows belong to), and stores `tanh (x · w + h)`, the row `h` added to
  every row of the product. Over the extended reals the rounding of `x` to a shorter format on the way
  into the product is the identity and the product into a zero accumulator is the plain sum over the 1024
  features, so the element at row `p`, hidden unit `q` is
      tanh (∑ k, x[p, k] · w[k, q] + h[0, 0, q]).
-/
import proofs.«145390_j52381421142740_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Cell

open Cert.KernelIdeal Cert.KernelIdeal.Gen Idealize.ShloMosaic Idealize.ShloMosaic.ValueIdx

/-- The body's matrix product contracts the tile's feature axis against the weight's first axis: at
    output element (p, q) and feature k the left factor sits at (p, k) … -/
theorem lhs_at (p q k : Fin 1024) :
    dot_S1024x1024_S1024x1024_S1024x1024_1_0_0_1_n_n.lhsIdx (ix2 p q)
      ((contrEquiv1 dot_S1024x1024_S1024x1024_S1024x1024_1_0_0_1_n_n 1024 rfl rfl).symm k) = ix2 p k := by
  have hk := contrEquiv1_symm_val dot_S1024x1024_S1024x1024_S1024x1024_1_0_0_1_n_n 1024 rfl rfl k
  funext a
  apply Fin.ext
  match a with
  | ⟨0, _⟩ =>
    show (dot_S1024x1024_S1024x1024_S1024x1024_1_0_0_1_n_n.lhsIdx (ix2 p q) _ 0).val = p.val
    unfold DotDims.lhsIdx
    rw [dif_neg (show ¬(0 : Fin S1024x1024.rank) ∈ dot_S1024x1024_S1024x1024_S1024x1024_1_0_0_1_n_n.lhsBatch by decide),
      dif_pos (show (0 : Fin S1024x1024.rank) ∈ dot_S1024x1024_S1024x1024_S1024x1024_1_0_0_1_n_n.lhsNonContracting by decide)]
    rfl
  | ⟨1, _⟩ =>
    exact (dot_S1024x1024_S1024x1024_S1024x1024_1_0_0_1_n_n.lhsIdx_val_of_single rfl (ix2 p q) _).trans hk

/-- … and the right factor at (k, q). -/
theorem rhs_at (p q k : Fin 1024) :
    dot_S1024x1024_S1024x1024_S1024x1024_1_0_0_1_n_n.rhsIdx (ix2 p q)
      ((contrEquiv1 dot_S1024x1024_S1024x1024_S1024x1024_1_0_0_1_n_n 1024 rfl rfl).symm k) = ix2 k q := by
  have hk := contrEquiv1_symm_val dot_S1024x1024_S1024x1024_S1024x1024_1_0_0_1_n_n 1024 rfl rfl k
  funext a
  apply Fin.ext
  match a with
  | ⟨0, _⟩ =>
    exact (dot_S1024x1024_S1024x1024_S1024x1024_1_0_0_1_n_n.rhsIdx_val_of_single rfl (ix2 p q) _).trans hk
  | ⟨1, _⟩ =>
    show (dot_S1024x1024_S1024x1024_S1024x1024_1_0_0_1_n_n.rhsIdx (ix2 p q) _ 1).val = q.val
    unfold DotDims.rhsIdx
    rw [dif_neg (show ¬(1 : Fin S1024x1024.rank) ∈ dot_S1024x1024_S1024x1024_S1024x1024_1_0_0_1_n_n.rhsBatch by decide),
      dif_pos (show (1 : Fin S1024x1024.rank) ∈ dot_S1024x1024_S1024x1024_S1024x1024_1_0_0_1_n_n.rhsNonContracting by decide)]
    rfl

/-- The product into the zero accumulator, at an element: the sum over the features. -/
theorem product_at (a b : FVec Ideal S1024x1024 .bf16) (p q : Fin 1024) :
    matmul dot_S1024x1024_S1024x1024_S1024x1024_1_0_0_1_n_n none a b (constant (F := Ideal) S1024x1024 .f32 0x00000000#32) (ix2 p q)
      = ∑ k : Fin 1024, a (ix2 p k) * b (ix2 k q) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  rw [lhs_at, rhs_at]

/-- The loaded row of the hidden term, its two unit axes dropped to one and then spread over the tile's
    rows, is at (p, q) its entry q. -/
theorem row_at (h : Vec Ideal S1x1x1024 .f32) (p q : Fin 1024) :
    broadcastTo S1024x1024 (shapeCast S1x1024 h shapeCasts_S1x1x1024_S1x1024) broadcasts_S1x1024_S1024x1024 (ix2 p q)
      = h (ix3 (0 : Fin 1) (0 : Fin 1) q) :=
  (broadcastTo_1b_ab_apply _ broadcasts_S1x1024_S1024x1024 p q).trans
    (shapeCast_1ab_ab_apply h shapeCasts_S1x1x1024_S1x1024 (0 : Fin 1) q)

/-- What the body stores, at row `p` and hidden unit `q`. -/
theorem stored_at (x : Vec Ideal S1024x1024 .f32) (w : Vec Ideal S1024x1024 .bf16) (h : Vec Ideal S1x1x1024 .f32)
    (p q : Fin 1024) :
    k0_pay1 x w h (ix2 p q)
      = Ideal.tanh ((∑ k : Fin 1024, x (ix2 p k) * w (ix2 k q)) + h (ix3 (0 : Fin 1) (0 : Fin 1) q)) := by
  unfold k0_pay1
  show Ideal.tanh (matmul dot_S1024x1024_S1024x1024_S1024x1024_1_0_0_1_n_n none
        (truncf .bf16 (shapeCast S1024x1024 x shapeCasts_S1024x1024_S1024x1024) bitsLt_bf16_f32)
        (shapeCast S1024x1024 w shapeCasts_S1024x1024_S1024x1024) (constant (F := Ideal) S1024x1024 .f32 0x00000000#32) (ix2 p q)
      + broadcastTo S1024x1024 (shapeCast S1x1024 h shapeCasts_S1x1x1024_S1x1024) broadcasts_S1x1024_S1024x1024 (ix2 p q)) = _
  rw [product_at, row_at, shapeCast_self, shapeCast_self]
  rfl

end Cert.KernelIdeal.Cell

end
-- ==== Proof.CellRows.lean ====
/-
  The region's result array, all 32768 rows of it.

  The grid has 32 steps. Step `t` works on rows `1024·t … 1024·t + 1023` of the flattened input (the row
  `2048·b + s` is batch entry `b` at time `s`), on the whole weight, and on the row of the hidden term of
  batch entry `t / 2` — two steps per batch entry, as 2048 = 2 · 1024 — and writes the same rows of the
  result. So the row `r` of the result depends on row `r` of the input and on the hidden term of batch
  entry `r / 2048`:
      out[r, q] = tanh (∑ k, X[r, k] · W[k, q] + H[r / 2048, 0, q]),
  and the 32 tiles cover the 32768 rows (row `r` is in the tile of step `r / 1024`).
-/
import proofs.«145390_j52381421142740_2_alg».proof.Proof.Gen.KernelIdeal.Frame
import proofs.«145390_j52381421142740_2_alg».proof.Proof.CellBody

noncomputable section

namespace Cert.KernelIdeal.Cell

open Cert.KernelIdeal Cert.KernelIdeal.Gen Idealize.ShloMosaic Idealize.ShloMosaic.TcCoe Idealize.SL.Sem
open Idealize.ShloMosaic.ValueIdx
open Idealize.ShloMosaic.Pipeline (Dat)

/-- Row `r`, hidden unit `q` of the result, from the flattened input `X`, the hidden term `H` (one row per
    batch entry) and the transposed weight `W`. -/
def rowsAt (X : S32768x1024.Idx → EReal) (H : S16x1x1024.Idx → EReal) (W : S1024x1024.Idx → EReal)
    (r : Fin 32768) (q : Fin 1024) : EReal :=
  Ideal.tanh ((∑ k : Fin 1024, X (ix2 r k) * W (ix2 k q))
    + H (ix3 (⟨r.val / 2048, by have := r.isLt; omega⟩ : Fin 16) (0 : Fin 1) q))

/-- The whole result array. -/
def rows (X : S32768x1024.Idx → EReal) (H : S16x1x1024.Idx → EReal) (W : S1024x1024.Idx → EReal) :
    S32768x1024.Idx → EReal :=
  fun j => rowsAt X H W ⟨(j 0).val, (j 0).isLt⟩ ⟨(j 1).val, (j 1).isLt⟩

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- Which block each window holds at step `t`: the input and the result move one tile of rows per step,
    the hidden term one row every two steps, the weight never. -/
theorem block_of_step : ∀ t : Fin cfg0.N,
    win0_0.index t (0 : Fin 2) = t.val ∧ win0_0.index t (1 : Fin 2) = 0
    ∧ win0_1.index t (0 : Fin 3) = t.val / 2 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem step_lt (t : Fin cfg0.N) : t.val < 32 := by
  have h := t.isLt
  have e : cfg0.N = 32 := N_0
  omega

/-- The input tile of step `t`, at (p, k): row `1024·t + p` of the flattened input. -/
theorem tile_at (c : Dev nD) (t : Fin cfg0.N) (p k : Fin 1024) :
    iblk m c 0 t (ix2 p k)
      = V m c main_v11 (ix2 (⟨t.val * 1024 + p.val, by have := step_lt t; have := p.isLt; omega⟩ : Fin 32768) k) := by
  obtain ⟨e0, e1, -⟩ := block_of_step t
  show V m c main_v11 (((cfg0.win 0).blk t).view.emb (ix2 p k)) = _
  refine congrArg (V m c main_v11) (funext fun a => Fin.ext ?_)
  match a with
  | ⟨0, _⟩ => show win0_0.index t (0 : Fin 2) * 1024 + 1 * p.val = t.val * 1024 + p.val; omega
  | ⟨1, _⟩ => show win0_0.index t (1 : Fin 2) * 1024 + 1 * k.val = k.val; omega

/-- The weight block is the whole weight at every step. -/
theorem weight_at (c : Dev nD) (t : Fin cfg0.N) (k q : Fin 1024) :
    iblk m c 2 t (ix2 k q) = V m c main_v10 (ix2 k q) := by
  obtain ⟨-, -, -, -, -, e0, e1, -⟩ := block_of_step t
  show V m c main_v10 (((cfg0.win 2).blk t).view.emb (ix2 k q)) = _
  refine congrArg (V m c main_v10) (funext fun a => Fin.ext ?_)
  match a with
  | ⟨0, _⟩ => show win0_2.index t (0 : Fin 2) * 1024 + 1 * k.val = k.val; omega
  | ⟨1, _⟩ => show win0_2.index t (1 : Fin 2) * 1024 + 1 * q.val = q.val; omega

/-- The hidden-term block of step `t` is the row of batch entry `t / 2`. -/
theorem hidden_at (c : Dev nD) (t : Fin cfg0.N) (q : Fin 1024) :
    iblk m c 1 t (ix3 (0 : Fin 1) (0 : Fin 1) q)
      = V m c main_v8 (ix3 (⟨t.val / 2, by have := step_lt t; omega⟩ : Fin 16) (0 : Fin 1) q) := by
  obtain ⟨-, -, e0, e1, e2, -⟩ := block_of_step t
  show V m c main_v8 (((cfg0.win 1).blk t).view.emb (ix3 (0 : Fin 1) (0 : Fin 1) q)) = _
  refine congrArg (V m c main_v8) (funext fun a => Fin.ext ?_)
  match a with
  | ⟨0, _⟩ => show win0_1.index t (0 : Fin 3) * 1 + 1 * 0 = t.val / 2; omega
  | ⟨1, _⟩ => show win0_1.index t (1 : Fin 3) * 1 + 1 * 0 = 0; omega
  | ⟨2, _⟩ => show win0_1.index t (2 : Fin 3) * 1024 + 1 * q.val = q.val; omega

/-- Where the result tile of step `t` lands: (p, q) of the tile is row `1024·t + p` of the result. -/
theorem result_at (t : Fin cfg0.N) (p q : Fin 1024) :
    ((cfg0.win 3).blk t).view.emb (ix2 p q)
      = ix2 (⟨t.val * 1024 + p.val, by have := step_lt t; have := p.isLt; omega⟩ : Fin 32768) q := by
  obtain ⟨-, -, -, -, -, -, -, e0, e1⟩ := block_of_step t
  funext a
  apply Fin.ext
  match a with
  | ⟨0, _⟩ => show win0_3.index t (0 : Fin 2) * 1024 + 1 * p.val = t.val * 1024 + p.val; omega
  | ⟨1, _⟩ => show win0_3.index t (1 : Fin 2) * 1024 + 1 * q.val = q.val; omega

/-- What step `t` writes back is tile `t` of `rows` of the three arrays as the region finds them. -/
theorem flushed_eq (c : Dev nD) (t : Fin cfg0.N) :
    (dats m 0 c).flushed 3 t
      = ((cfg0.win 3).blk t).view.read (Elt Ideal) (rows (V m c main_v11) (V m c main_v8) (V m c main_v10)) := by
  show (cfg0.win 3).cut (grid0.coords t) ((dats m 0 c).after 3 t) = _
  rw [after0_3]
  unfold out0_3
  rw [View.canon_unit_zero zeros2]
  simp only [View.ld_unit_zero (S := S1024x1024) zeros2, View.ld_unit_zero (S := S1x1x1024) zeros3]
  funext y
  obtain ⟨p, q, rfl⟩ : ∃ (p q : Fin 1024), y = ix2 p q := ⟨y 0, y 1, eq_ix2 y⟩
  show k0_pay1 (iblk m c 0 t) (iblk m c 2 t) (iblk m c 1 t) (ix2 p q)
    = rows (V m c main_v11) (V m c main_v8) (V m c main_v10) (((cfg0.win 3).blk t).view.emb (ix2 p q))
  refine (stored_at (iblk m c 0 t) (iblk m c 2 t) (iblk m c 1 t) p q).trans ?_
  rw [result_at, hidden_at]
  unfold rows rowsAt
  refine congrArg Ideal.tanh ?_
  refine congrArg₂ (· + ·) (Finset.sum_congr rfl fun k _ => ?_) ?_
  · rw [tile_at, weight_at]
  · refine congrArg (V m c main_v8) (funext fun a => Fin.ext ?_)
    have := step_lt t
    have := p.isLt
    match a with
    | ⟨0, _⟩ => show t.val / 2 = (t.val * 1024 + p.val) / 2048; omega
    | ⟨1, _⟩ => rfl
    | ⟨2, _⟩ => rfl

end Cert.KernelIdeal.Cell

end
-- ==== Proof.CellCover.lean ====
/-
  The 32 tiles cover the result array, so after the region the array is `rows` of what the region found.

  Row `r` lies in the tile of step `r / 1024`, which is written back like every other; each step's tile is
  the restriction of the one function `rows`, so the array read whole is that function.
-/
import proofs.«145390_j52381421142740_2_alg».proof.Proof.CellRows

noncomputable section

namespace Cert.KernelIdeal.Cell

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- An index of the result is in step `t`'s tile iff each coordinate is in the tile's range on its axis. -/
theorem mem_tile (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v12).slice (win0_3.rect t)).set ↔ _
  rw [View.set_slice_whole, Rect.mem_set_unit]
  exact Iff.rfl

/-- Every index of the result is in the tile of the step its row belongs to. -/
theorem covered (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  have hN : cfg0.N = 32 := N_0
  obtain ⟨t, ht⟩ : ∃ t : Fin cfg0.N, t.val = (i 0).val / 1024 := ⟨⟨(i 0).val / 1024, by omega⟩, rfl⟩
  refine ⟨t, flush0_3 t, ?_⟩
  rw [mem_tile]
  obtain ⟨-, -, -, -, -, -, -, e0, e1⟩ := block_of_step t
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- The result array after the region. -/
theorem region_result (c : Dev nD) :
    (dats m 0 c).arrAt 3 cfg0.N = rows (V m c main_v11) (V m c main_v8) (V m c main_v10) :=
  (dats m 0 c).arrAt_eq_of_cover 3 _ (fun t _ => flushed_eq m c t) covered

end Cert.KernelIdeal.Cell

end
-- ==== Proof.CellSpec.lean ====
/-
  The recurrent cell applied to every time step with one and the same hidden state, as one function.

  For batch entry `b`, time `s` and hidden unit `h`,
      out[b, s, h] = tanh (∑ k, x[b, s, k] · Wih[h, k] + H[b, h]),
  where `H` is the hidden term (hidden state times the recurrent weight, plus the two biases), which does
  not depend on the time step. Both programs compute `H` by the same operations, so it stays a parameter
  here and is never opened.
-/
import Idealize.ShloMosaic.PureOps.Ideal
import Idealize.ShloMosaic.Lib.ValueIdx

noncomputable section

namespace Cert.CellSpec

open Idealize.ShloMosaic Idealize.ShloMosaic.ValueIdx

/-- One element of the output. -/
def cellOutAt (x : (⟨3, ![16, 2048, 1024]⟩ : Shape).Idx → EReal) (H : (⟨2, ![16, 1024]⟩ : Shape).Idx → EReal)
    (Wih : (⟨2, ![1024, 1024]⟩ : Shape).Idx → EReal) (b : Fin 16) (s : Fin 2048) (h : Fin 1024) : EReal :=
  Ideal.tanh ((∑ k : Fin 1024, x (ix3 b s k) * Wih (ix2 h k)) + H (ix2 b h))

/-- The whole output. -/
def cellOut (x : (⟨3, ![16, 2048, 1024]⟩ : Shape).Idx → EReal) (H : (⟨2, ![16, 1024]⟩ : Shape).Idx → EReal)
    (Wih : (⟨2, ![1024, 1024]⟩ : Shape).Idx → EReal) : (⟨3, ![16, 2048, 1024]⟩ : Shape).Idx → EReal :=
  fun i => cellOutAt x H Wih ⟨(i 0).val, (i 0).isLt⟩ ⟨(i 1).val, (i 1).isLt⟩ ⟨(i 2).val, (i 2).isLt⟩

theorem cellOut_at (x : (⟨3, ![16, 2048, 1024]⟩ : Shape).Idx → EReal) (H : (⟨2, ![16, 1024]⟩ : Shape).Idx → EReal)
    (Wih : (⟨2, ![1024, 1024]⟩ : Shape).Idx → EReal) (b : Fin 16) (s : Fin 2048) (h : Fin 1024) :
    cellOut x H Wih (ix3 b s h) = cellOutAt x H Wih b s h := rfl

end Cert.CellSpec

end
-- ==== Proof.CellHost.lean ====
/-
  The kernel's program around its region, read at an element.

  Before the region the program flattens the input `x` from [16, 2048, 1024] to [32768, 1024] rows (row
  `2048·b + s` is batch entry `b` at time `s`), computes the hidden term `H` and gives it a unit middle
  axis, and transposes the input weight (so that it is feature × hidden unit). After the region it
  folds the 32768 result rows back to [16, 2048, 1024]. Reading `rows` of those three arrays at row
  `2048·b + s`: the input row is `x[b, s, ·]`, the transposed weight at (k, h) is `Wih[h, k]`, and the
  row's batch entry `(2048·b + s) / 2048` is `b`. So the program's result is `cellOut x H Wih`.
-/
import proofs.«145390_j52381421142740_2_alg».proof.Proof.CellCover
import proofs.«145390_j52381421142740_2_alg».proof.Proof.CellSpec
import Idealize.ShloMosaic.Lib.StableHlo.Run

noncomputable section

namespace Cert.KernelIdeal.Cell

open Cert.KernelIdeal Cert.KernelIdeal.Gen Idealize.ShloMosaic Idealize.ShloMosaic.TcCoe Idealize.SL.Sem
open Idealize.ShloMosaic.ValueIdx Idealize.ShloMosaic.StableHlo Cert.CellSpec

/-- The hidden term as the program computes it: the hidden state times the transposed recurrent
    weight, plus the recurrent bias, plus the input bias, each bias spread over the batch. -/
def hiddenTerm (hx : FVec Ideal S16x1024 .f32) (Whh : FVec Ideal S1024x1024 .f32) (bih bhh : FVec Ideal S1024 .f32) :
    FVec Ideal S16x1024 .f32 :=
  addf (addf (Host.dotGeneral (F := Ideal) dot_S16x1024_S1024x1024_S16x1024_1_0_0_1_n_n none hx
        (transpose S1024x1024 [1, 0] Whh transposes_S1024x1024_S1024x1024_1_0))
      (broadcastInDim S16x1024 ![0, 1] bcast_S1x1024_S16x1024_0_1 (broadcastInDim S1x1024 ![1] bcast_S1024_S1x1024_1 bhh)))
    (broadcastInDim S16x1024 ![0, 1] bcast_S1x1024_S16x1024_0_1 (broadcastInDim S1x1024 ![1] bcast_S1024_S1x1024_1 bih))

/-- `rows` of the flattened input, the hidden term with its unit axis and the transposed weight, folded
    back to [16, 2048, 1024], is `cellOut`. -/
theorem rows_folded (x : FVec Ideal S16x2048x1024 .f32) (H : FVec Ideal S16x1024 .f32) (Wih : FVec Ideal S1024x1024 .f32) :
    shapeCast S16x2048x1024
        (rows (shapeCast S32768x1024 x shapeCasts_S16x2048x1024_S32768x1024)
          (shapeCast S16x1x1024 H shapeCasts_S16x1024_S16x1x1024)
          (truncf .bf16 (transpose S1024x1024 [1, 0] Wih transposes_S1024x1024_S1024x1024_1_0) bitsLt_bf16_f32))
        shapeCasts_S32768x1024_S16x2048x1024
      = cellOut x H Wih := by
  funext i
  obtain ⟨b, s, h, rfl⟩ : ∃ (b : Fin 16) (s : Fin 2048) (h : Fin 1024), i = ix3 b s h := ⟨i 0, i 1, i 2, eq_ix3 i⟩
  have hb := b.isLt
  have hs := s.isLt
  have hr : b.val * 2048 + s.val < 32768 := by omega
  refine (shapeCast_apply _ shapeCasts_S32768x1024_S16x2048x1024 (ix3 b s h)
    (ix2 (⟨b.val * 2048 + s.val, hr⟩ : Fin 32768) h) ?_).trans ?_
  · rw [Shape.rowMajor_val_two, Shape.rowMajor_val_three]; rfl
  · rw [cellOut_at]
    show rowsAt _ _ _ (⟨b.val * 2048 + s.val, hr⟩ : Fin 32768) h = _
    unfold rowsAt cellOutAt
    refine congrArg Ideal.tanh (congrArg₂ (· + ·) (Finset.sum_congr rfl fun k _ => congrArg₂ (· * ·) ?_ ?_) ?_)
    · exact shapeCast_apply x shapeCasts_S16x2048x1024_S32768x1024 _ (ix3 b s k) (by
        rw [Shape.rowMajor_val_two, Shape.rowMajor_val_three]; rfl)
    · exact transpose_ix2_apply Wih transposes_S1024x1024_S1024x1024_1_0 k h
    · exact shapeCast_apply H shapeCasts_S16x1024_S16x1x1024 _ (ix2 b h) (by
        rw [Shape.rowMajor_val_two, Shape.rowMajor_val_three]
        show b.val * 1024 + h.val = ((b.val * 2048 + s.val) / 2048 * 1 + 0) * 1024 + h.val
        omega)

variable (m : (ℓ : Loc nD τ sig) → Buf (Elt Ideal) ℓ) (ρ : Dev nD → PrngReg)

/-- The flattened input as the region finds it. -/
theorem found_input (c : Dev nD) :
    (V m c main_v11 : S32768x1024.Idx → EReal)
      = shapeCast S32768x1024 (m ((c.tc : Thread nD τ).loc main_arg0)) shapeCasts_S16x2048x1024_S32768x1024 := by
  show StableHlo.after hostOps0 (fun b => m (c, b)) (Proc.devRef .tc main_v11) = _
  after_results
  rfl

/-- The hidden term as the region finds it, with its unit middle axis. -/
theorem found_hidden (c : Dev nD) :
    (V m c main_v8 : S16x1x1024.Idx → EReal)
      = shapeCast S16x1x1024 (hiddenTerm (m ((c.tc : Thread nD τ).loc main_arg1)) (m ((c.tc : Thread nD τ).loc main_arg3))
          (m ((c.tc : Thread nD τ).loc main_arg4)) (m ((c.tc : Thread nD τ).loc main_arg5))) shapeCasts_S16x1024_S16x1x1024 := by
  show StableHlo.after hostOps0 (fun b => m (c, b)) (Proc.devRef .tc main_v8) = _
  after_results
  rfl

/-- The transposed input weight as the region finds it. -/
theorem found_weight (c : Dev nD) :
    (V m c main_v10 : S1024x1024.Idx → EReal)
      = (truncf (F := Ideal) .bf16
          (transpose S1024x1024 [1, 0] (m ((c.tc : Thread nD τ).loc main_arg2)) transposes_S1024x1024_S1024x1024_1_0)
          bitsLt_bf16_f32 : S1024x1024.Idx → EReal) := by
  show StableHlo.after hostOps0 (fun b => m (c, b)) (Proc.devRef .tc main_v10) = _
  after_results
  try rfl

/-- The program's result: the region's array folded back, `cellOut` of the arguments. -/
theorem program_result (c : Dev nD) :
    (Pipeline.afterTail₀ cfgs (dats m) 0 (V0 m) [hostOps1] c main_v13 : S16x2048x1024.Idx → EReal)
      = cellOut (m ((c.tc : Thread nD τ).loc main_arg0))
          (hiddenTerm (m ((c.tc : Thread nD τ).loc main_arg1)) (m ((c.tc : Thread nD τ).loc main_arg3))
            (m ((c.tc : Thread nD τ).loc main_arg4)) (m ((c.tc : Thread nD τ).loc main_arg5)))
          (m ((c.tc : Thread nD τ).loc main_arg2)) := by
  have hw : (Pipeline.withArrays spec0 c (V0 m c) (fun w => (dats m 0 c).arrAt w cfg0.N) (Proc.devRef .tc main_v12)
        : S32768x1024.Idx → EReal)
      = rows (V m c main_v11) (V m c main_v8) (V m c main_v10) :=
    (Pipeline.withArrays_arr spec0 launch0.win.arr_inj c _ _ 3).trans (region_result m c)
  have tail : (Pipeline.afterTail₀ cfgs (dats m) 0 (V0 m) [hostOps1] c main_v13 : S16x2048x1024.Idx → EReal)
      = shapeCast S16x2048x1024
          (Pipeline.withArrays spec0 c (V0 m c) (fun w => (dats m 0 c).arrAt w cfg0.N) (Proc.devRef .tc main_v12)
            : S32768x1024.Idx → EReal)
          shapeCasts_S32768x1024_S16x2048x1024 := by
    unfold Pipeline.afterTail₀
    show StableHlo.after hostOps1 _ (Proc.devRef .tc main_v13) = _
    after_results
    rfl
  rw [tail, hw, found_input, found_hidden, found_weight]
  exact rows_folded _ _ _

end Cert.KernelIdeal.Cell

end
-- ==== Proof.CellReference.lean ====
/-
  The reference, read at an element.

  The reference contracts the input's feature axis against the input weight's feature axis for every
  (batch entry, time) pair at once, adds the hidden term spread over the time axis, and applies `tanh`:
  at (b, s, h) that is `tanh (∑ k, x[b, s, k] · Wih[h, k] + H[b, h])`, the specification, with `H` the
  reference's own hidden term.
-/
import proofs.«145390_j52381421142740_2_alg».proof.Proof.Gen.ReferenceIdeal.Read
import proofs.«145390_j52381421142740_2_alg».proof.Proof.CellSpec

noncomputable section

namespace Cert.ReferenceIdeal.Cell

open Cert.ReferenceIdeal Cert.ReferenceIdeal.Read Idealize.ShloMosaic Idealize.ShloMosaic.ValueIdx Cert.CellSpec

/-- The reference's last stage is the specification over the reference's hidden term. -/
theorem reference_result (x0 : FVec Ideal S16x2048x1024 .f32) (x1 : FVec Ideal S16x1024 .f32)
    (x2 x3 : FVec Ideal S1024x1024 .f32) (x4 x5 : FVec Ideal S1024 .f32) :
    val_main_v12 (F := Ideal) x0 x1 x2 x3 x4 x5 = cellOut x0 (val_main_v7 (F := Ideal) x1 x3 x4 x5) x2 := by
  funext i
  obtain ⟨b, s, h, rfl⟩ : ∃ (b : Fin 16) (s : Fin 2048) (h : Fin 1024), i = ix3 b s h := ⟨i 0, i 1, i 2, eq_ix3 i⟩
  have el : ∀ k : Fin 1024, lidx_main_v8 (ix3 b s h) k = ix3 b s k := fun k =>
    funext fun a => Fin.ext (by match a with | ⟨0, _⟩ => rfl | ⟨1, _⟩ => rfl | ⟨2, _⟩ => rfl)
  have er : ∀ k : Fin 1024, ridx_main_v8 (ix3 b s h) k = ix2 h k := fun k =>
    funext fun a => Fin.ext (by match a with | ⟨0, _⟩ => rfl | ⟨1, _⟩ => rfl)
  have eh : idx_main_v9 (idx_main_v10 (ix3 b s h)) = ix2 b h :=
    funext fun a => Fin.ext (by match a with | ⟨0, _⟩ => rfl | ⟨1, _⟩ => rfl)
  rw [val_main_v12_apply, val_main_v11_apply, val_main_v8_apply, val_main_v10_apply, val_main_v9_apply, eh, cellOut_at]
  simp only [el, er]
  rfl

end Cert.ReferenceIdeal.Cell

end
-- ==== Proof.lean ====
/-
  The recurrent cell `h' = tanh (x_t · Wihᵀ + b_ih + hx · Whhᵀ + b_hh)`, applied to all 2048 time steps of 16
  sequences with one and the same hidden state `hx`: the tiled kernel against the plain reference.

  Both programs first compute the hidden term `H = hx · Whhᵀ + b_hh + b_ih` ([16, 1024]) by the same
  operations in the same order. The reference then contracts the feature axis of `x` ([16, 2048, 1024]) against
  that of `Wih`, adds `H` spread over the time axis and applies `tanh`. The kernel flattens `x` to 32768 rows,
  transposes `Wih`, and in 32 steps of 1024 rows each multiplies a tile of rows by the transposed weight, adds the
  row of `H` that belongs to the tile's batch entry (two tiles per batch entry) and applies `tanh`; the rows are
  folded back to [16, 2048, 1024] at the end.

  Over the extended reals a change of float format is the identity and both matrix products are the plain sum over
  the 1024 features in the same order, so element (b, s, h) of both results is
      tanh (∑ k, x[b, s, k] · Wih[h, k] + H[b, h])
  (`Cert.CellSpec.cellOut`). No algebraic law is needed beyond reading each program at an element, and none that
  would need the inputs to be finite: the precondition is not used. The ideal pass rewrote nothing in the kernel,
  so there is nothing to show for the idealization.

  The modules: `CellBody` (one step's stored tile at an element), `CellRows` (each step's tile is a block of one
  function of the flattened arrays), `CellCover` (the tiles cover the result), `CellHost` (the flattening, the
  transposition and the folding back, read at an element), `CellReference` (the reference at an element).
-/
import proofs.«145390_j52381421142740_2_alg».proof.Defs
import proofs.«145390_j52381421142740_2_alg».proof.Proof.Gen.Kernel
import proofs.«145390_j52381421142740_2_alg».proof.Proof.Gen.Kernel.Skeleton
import proofs.«145390_j52381421142740_2_alg».proof.Proof.Gen.Kernel.Launch
import proofs.«145390_j52381421142740_2_alg».proof.Proof.Gen.Kernel.Points
import proofs.«145390_j52381421142740_2_alg».proof.Proof.Gen.Kernel.Frame
import proofs.«145390_j52381421142740_2_alg».proof.Proof.Gen.KernelIdeal
import proofs.«145390_j52381421142740_2_alg».proof.Proof.Gen.KernelIdeal.Skeleton
import proofs.«145390_j52381421142740_2_alg».proof.Proof.Gen.KernelIdeal.Launch
import proofs.«145390_j52381421142740_2_alg».proof.Proof.Gen.KernelIdeal.Points
import proofs.«145390_j52381421142740_2_alg».proof.Proof.Gen.KernelIdeal.Frame
import proofs.«145390_j52381421142740_2_alg».proof.Proof.Gen.ReferenceIdeal
import proofs.«145390_j52381421142740_2_alg».proof.Proof.Gen.Pre_finite_inputs
import proofs.«145390_j52381421142740_2_alg».proof.Proof.Gen.ReferenceIdeal.Run
import proofs.«145390_j52381421142740_2_alg».proof.Proof.Gen.ReferenceIdeal.Read
import proofs.«145390_j52381421142740_2_alg».proof.Proof.CellHost
import proofs.«145390_j52381421142740_2_alg».proof.Proof.CellReference
import Idealize.ShloMosaic.Adequacy
import Idealize.ShloMosaic.Init

noncomputable section

namespace Cert.Proof

open Idealize.ShloMosaic Idealize.ShloMosaic.TcCoe Idealize.SL.Sem Cert.CellSpec

/-- The two programs compute the hidden term by the same operations on the same shapes. -/
theorem hidden_same (hx : FVec Ideal Cert.KernelIdeal.S16x1024 .f32) (Whh : FVec Ideal Cert.KernelIdeal.S1024x1024 .f32)
    (bih bhh : FVec Ideal Cert.KernelIdeal.S1024 .f32) :
    Cert.ReferenceIdeal.Read.val_main_v7 (F := Ideal) hx Whh bih bhh = Cert.KernelIdeal.Cell.hiddenTerm hx Whh bih bhh := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

section KernelRun

open Cert.KernelIdeal Cert.KernelIdeal.Gen

/-- The kernel's program runs to the specification of its arguments, and leaves the arguments alone. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13)
        = cellOut (m ((c.tc : Thread nD τ).loc main_arg0))
            (Cert.KernelIdeal.Cell.hiddenTerm (m ((c.tc : Thread nD τ).loc main_arg1)) (m ((c.tc : Thread nD τ).loc main_arg3))
              (m ((c.tc : Thread nD τ).loc main_arg4)) (m ((c.tc : Thread nD τ).loc main_arg5)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v13 (Pipeline.mem_restRefs_of main_v13 (by decide) (by decide))).trans (Cert.KernelIdeal.Cell.program_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end KernelRun

/-- The ideal pass rewrote nothing. -/
theorem preserves : Cert.preserves_Kernel_KernelIdeal := trivial

/-- Both idealized programs, from memories that agree on the arguments, end at the specification of those
    arguments: the kernel by `kernel_run`, the reference by its run read at an element, the hidden terms the same. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v12_eq _ _ _ _ _ _).trans
    ((Cert.ReferenceIdeal.Cell.reference_result _ _ _ _ _ _).trans
      (congrArg (fun H => cellOut _ H _) (hidden_same _ _ _ _)))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
